-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x256 : Shape := ⟨2, ![4096, 256]⟩
abbrev S256 : Shape := ⟨1, ![256]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S8x2048x4096 .f32) (main_arg1 : FVec F S4096x256 .f32) (main_arg2 : FVec F S256 .f32) (main_arg3 : FVec F S4096x256 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Kernel.lean ====
abbrev S8x2048x4096 : Shape := ⟨3, ![8, 2048, 4096]⟩
abbrev S4096x256 : Shape := ⟨2, ![4096, 256]⟩
abbrev S256 : Shape := ⟨1, ![256]⟩
abbrev S1x256 : Shape := ⟨2, ![1, 256]⟩
abbrev S16384x4096 : Shape := ⟨2, ![16384, 4096]⟩
abbrev S512x4096 : Shape := ⟨2, ![512, 4096]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S4096x256, .bf16⟩
  | .hbm, ⟨8, _⟩ => ⟨S4096x256, .bf16⟩
  | .hbm, ⟨9, _⟩ => ⟨S16384x4096, .f32⟩
  | .hbm, ⟨10, _⟩ => ⟨S16384x4096, .f32⟩
  | .hbm, ⟨11, _⟩ => ⟨S8x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | .local _ .vmem, ⟨5, _⟩ => ⟨S512x1024, .f32⟩
  | .local _ .vmem, ⟨6, _⟩ => ⟨S512x1024, .f32⟩
  | .local _ .vmem, ⟨7, _⟩ => ⟨S512x256, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bitsLt_bf16_f32 : FTy.bits .bf16 < FTy.bits .f32
  shapeCasts_S8x2048x4096_S16384x4096 : S8x2048x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x1024_S512x1024_0_0 : ∀ a, (![0, 0] : Fin 2 → Nat) a + S512x1024.size a ≤ S512x1024.size a
  h_S512x1024 : 0 < S512x1024.numel
  shapeCasts_S16384x4096_S8x2048x4096 : S16384x4096.ShapeCasts S8x2048x4096
  dot_S512x4096_S4096x256_S512x256_1_0_0_1_n_n_wf : DotDims.WF S512x4096 S4096x256 S512x256 [1] [0] [0] [1] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v5) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x256 : Shape := ⟨2, ![4096, 256]⟩
abbrev S256 : Shape := ⟨1, ![256]⟩
abbrev S1x256 : Shape := ⟨2, ![1, 256]⟩
abbrev S256x4096 : Shape := ⟨2, ![256, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S256x4096, .f32⟩
  | .hbm, ⟨8, _⟩ => ⟨S4096x4096, .f32⟩
  | .hbm, ⟨9, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  dot_S4096x256_S256x4096_S4096x4096_1_0_0_1_n_n_wf : DotDims.WF S4096x256 S256x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibRegroup.lean ====
/-
  Regrouping a double sum through a bottleneck. Over two finite index types, for entries that are real numbers,

      ∑ r, (∑ k, x k * b r k) * a r  =  ∑ k, x k * ∑ r, a r * b r k :

  both sides are the double sum of x k * b r k * a r. The step moves a factor across a sum and exchanges the two sums;
  on the extended reals a factor distributes over a sum only away from the infinities, hence the hypothesis that every
  entry is the image of a real, and the proof in ℝ. This is the identity behind factoring a product with a low-rank
  matrix, (x · bᵀ) · a = x · (a · b)ᵀ, read at one entry.
-/
import proofs.«111972_j19954418057631_2_alg».proof.Proof.LibRealValued

noncomputable section

open scoped BigOperators
open Cert.RealValued

namespace Cert.Lib.Regroup

/-- For real entries, ∑ r, (∑ k, x k * b r k) * a r = ∑ k, x k * ∑ r, a r * b r k. -/
theorem regroup {ι κ : Type} [Fintype ι] [Fintype κ] (x : κ → EReal) (b : ι → κ → EReal) (a : ι → EReal)
    (hx : ∀ k, IsReal (x k)) (hb : ∀ r k, IsReal (b r k)) (ha : ∀ r, IsReal (a r)) :
    ∑ r, (∑ k, x k * b r k) * a r = ∑ k, x k * ∑ r, a r * b r k := by
  choose x' ex using hx
  choose b' eb using hb
  choose a' ea using ha
  have L : ∑ r, (∑ k, x k * b r k) * a r = ((∑ r, (∑ k, x' k * b' r k) * a' r : ℝ) : EReal) := by
    rw [coe_sum]
    refine Finset.sum_congr rfl fun r _ => ?_
    rw [EReal.coe_mul, coe_sum, ea r]
    congr 1
    refine Finset.sum_congr rfl fun k _ => ?_
    rw [EReal.coe_mul, ex k, eb r k]
  have R : ∑ k, x k * ∑ r, a r * b r k = ((∑ k, x' k * ∑ r, a' r * b' r k : ℝ) : EReal) := by
    rw [coe_sum]
    refine Finset.sum_congr rfl fun k _ => ?_
    rw [EReal.coe_mul, coe_sum, ex k]
    congr 1
    refine Finset.sum_congr rfl fun r _ => ?_
    rw [EReal.coe_mul, ea r, eb r k]
  rw [L, R]
  congr 1
  simp only [Finset.sum_mul, Finset.mul_sum]
  rw [Finset.sum_comm]
  exact Finset.sum_congr rfl fun k _ => Finset.sum_congr rfl fun r _ => by ring

end Cert.Lib.Regroup

end
-- ==== Proof.Spec.lean ====
/-
  The low-rank layer as one function of its four arrays, in the two arrangements the two programs compute.

  With x of shape [8, 2048, 4096], u and v of shape [4096, 256] and s of length 256, entry (b, q, o) of the result is

      factored:  ∑ r, (∑ k, x (b,q,k) * v (k,r)) * (u (o,r) * s r)      (project onto the 256 directions, then expand)
      dense:     ∑ k, x (b,q,k) * ∑ r, (u (o,r) * s r) * v (k,r)        (build the 4096-by-4096 weight, then apply it)

  Both are the double sum of x (b,q,k) * v (k,r) * (u (o,r) * s r); they agree when every entry is a real number
  (on the extended reals a factor moves across a sum only away from the infinities).
-/
import Idealize.ShloMosaic.Lib.ValueIdx
import proofs.«111972_j19954418057631_2_alg».proof.Proof.LibRegroup

noncomputable section

open scoped BigOperators
open Idealize.ShloMosaic Idealize.ShloMosaic.ValueIdx Cert.RealValued

namespace Cert.LowRank

/-- The shapes of the arrays. -/
abbrev SX : Shape := ⟨3, ![8, 2048, 4096]⟩
abbrev SM : Shape := ⟨2, ![4096, 256]⟩
abbrev SS : Shape := ⟨1, ![256]⟩

/-- Entry (b, q, o) computed through the 256-dimensional bottleneck: project x (b, q, ·) onto the columns of v, then
    combine with row o of u scaled by s. -/
def factoredAt (x : SX.Idx → EReal) (u : SM.Idx → EReal) (s : SS.Idx → EReal) (v : SM.Idx → EReal)
    (b : Fin 8) (q : Fin 2048) (o : Fin 4096) : EReal :=
  ∑ r : Fin 256, (∑ k : Fin 4096, x (ix3 b q k) * v (ix2 k r)) * (u (ix2 o r) * s (ix1 r))

/-- Entry (b, q, o) computed with the full weight matrix W (o, k) = ∑ r, (u (o,r) * s r) * v (k,r). -/
def denseAt (x : SX.Idx → EReal) (u : SM.Idx → EReal) (s : SS.Idx → EReal) (v : SM.Idx → EReal)
    (b : Fin 8) (q : Fin 2048) (o : Fin 4096) : EReal :=
  ∑ k : Fin 4096, x (ix3 b q k) * ∑ r : Fin 256, (u (ix2 o r) * s (ix1 r)) * v (ix2 k r)

/-- The whole result, bottleneck arrangement. -/
def factored (x : SX.Idx → EReal) (u : SM.Idx → EReal) (s : SS.Idx → EReal) (v : SM.Idx → EReal) : SX.Idx → EReal :=
  fun i => factoredAt x u s v (i 0) (i 1) (i 2)

/-- The whole result, full-weight arrangement. -/
def dense (x : SX.Idx → EReal) (u : SM.Idx → EReal) (s : SS.Idx → EReal) (v : SM.Idx → EReal) : SX.Idx → EReal :=
  fun i => denseAt x u s v (i 0) (i 1) (i 2)

/-- For real entries the two arrangements agree. -/
theorem factored_eq_dense (x : SX.Idx → EReal) (u : SM.Idx → EReal) (s : SS.Idx → EReal) (v : SM.Idx → EReal)
    (hx : ∀ i, IsReal (x i)) (hu : ∀ i, IsReal (u i)) (hs : ∀ i, IsReal (s i)) (hv : ∀ i, IsReal (v i)) :
    factored x u s v = dense x u s v := by
  funext i
  exact Cert.Lib.Regroup.regroup (fun k : Fin 4096 => x (ix3 (i 0) (i 1) k)) (fun (r : Fin 256) (k : Fin 4096) => v (ix2 k r))
    (fun r : Fin 256 => u (ix2 (i 2) r) * s (ix1 r)) (fun k => hx _) (fun r k => hv _) (fun r => (hu _).mul (hs _))

end Cert.LowRank

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«111972_j19954418057631_2_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.Finite.lean ====
/-
  The precondition makes every entry a real number.

  The stated precondition is the conjunction, over the four argument arrays, of "every entry has absolute value below
  +∞". Read on the extended reals this says that no entry is +∞ or -∞, that is, every entry of x, u, s and v is the
  image of a real number. The conjunction is nested to the left: ((x ∧ u) ∧ s) ∧ v.
-/
import proofs.«111972_j19954418057631_2_alg».proof.Pre_finite_inputs
import proofs.«111972_j19954418057631_2_alg».proof.Proof.Gen.Pre_finite_inputs
import proofs.«111972_j19954418057631_2_alg».proof.Proof.LibFiniteInputs
import Idealize.ShloMosaic.Lib.Affine

noncomputable section

open Idealize.ShloMosaic Cert.RealValued Cert.Lib.FiniteInputs

namespace Cert.LowRank

open Cert.Pre_finite_inputs in
/-- When the precondition evaluates to 1 on the extended reals, all entries of the four arrays are real numbers. -/
theorem reals_of_pre [Cert.Pre_finite_inputs.Facts]
    (x : FVec Ideal S8x2048x4096 .f32) (u : FVec Ideal S4096x256 .f32) (s : FVec Ideal S256 .f32) (v : FVec Ideal S4096x256 .f32)
    (h : Cert.Pre_finite_inputs.fn (F := Ideal) x u s v = fun _ => 1#1) :
    (∀ i, IsReal (x i)) ∧ (∀ i, IsReal (u i)) ∧ (∀ i, IsReal (s i)) ∧ (∀ i, IsReal (v i)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_lt_inf x _ _ _ _ h1, all_lt_inf u _ _ _ _ h2, all_lt_inf s _ _ _ _ h3, all_lt_inf v _ _ _ _ h4⟩

end Cert.LowRank

end
-- ==== Proof.RefValue.lean ====
/-
  The reference computes the full-weight arrangement.

  Its host program scales u by s along the columns, transposes v, multiplies the two into the 4096-by-4096 weight
  W (o, k) = ∑ r, (u (o,r) * s r) * v (k,r), and contracts x with W over k. Read index by index through the
  generated stage lemmas this is `Cert.LowRank.dense`.
-/
import proofs.«111972_j19954418057631_2_alg».proof.Proof.Gen.ReferenceIdeal.Read
import proofs.«111972_j19954418057631_2_alg».proof.Proof.Spec

noncomputable section

open scoped BigOperators
open Idealize.ShloMosaic Idealize.ShloMosaic.ValueIdx

namespace Cert.ReferenceIdeal.LowRank

open Cert.ReferenceIdeal Cert.ReferenceIdeal.Read

/-- The reference's result is the full-weight arrangement of the layer. -/
theorem reference_eq_dense (x : (⟨S8x2048x4096, .f32⟩ : BufTy).Contents (Elt Ideal)) (u : (⟨S4096x256, .f32⟩ : BufTy).Contents (Elt Ideal))
    (s : (⟨S256, .f32⟩ : BufTy).Contents (Elt Ideal)) (v : (⟨S4096x256, .f32⟩ : BufTy).Contents (Elt Ideal)) :
    val_main_v5 (F := Ideal) x u s v = Cert.LowRank.dense x u s v := by
  funext i
  rw [val_main_v5_apply]
  show _ = Cert.LowRank.denseAt x u s v (i 0) (i 1) (i 2)
  unfold Cert.LowRank.denseAt
  refine Finset.sum_congr rfl fun k _ => ?_
  have ex : lidx_main_v5 i k = ix3 (i 0) (i 1) k := funext fun a => Fin.ext (by
    match a with
    | ⟨0, _⟩ => rfl
    | ⟨1, _⟩ => rfl
    | ⟨2, _⟩ => rfl)
  rw [ex, val_main_v4_apply]
  congr 1
  refine Finset.sum_congr rfl fun r _ => ?_
  rw [val_main_v2_apply, val_main_v1_apply, val_main_v0_apply, val_main_v3_apply]
  have eu : lidx_main_v4 (ridx_main_v5 i k) r = ix2 (i 2) r := funext fun a => Fin.ext (by
    match a with
    | ⟨0, _⟩ => rfl
    | ⟨1, _⟩ => rfl)
  have es : idx_main_v0 (idx_main_v1 (lidx_main_v4 (ridx_main_v5 i k) r)) = ix1 r := funext fun a => Fin.ext (by
    match a with
    | ⟨0, _⟩ => rfl)
  have ev : idx_main_v3 (ridx_main_v4 (ridx_main_v5 i k) r) = ix2 k r := funext fun a => Fin.ext (by
    match a with
    | ⟨0, _⟩ => rfl
    | ⟨1, _⟩ => rfl)
  rw [eu, es, ev]
  rfl

end Cert.ReferenceIdeal.LowRank

end
-- ==== Proof.Pieces.lean ====
/-
  What one run of the kernel body leaves behind, as values.

  The body has two cases. At a grid point whose second coordinate j is 0 it computes the projection
  t = x_block · v, stores it into the scratch that is carried from point to point, reads it back, and stores
  t · u_blockᵀ into the output block. At a point with j > 0 it only reads the scratch, which still holds the
  projection stored at the first point of the same row block, and stores scratch · u_blockᵀ. Each store covers its
  whole buffer, so what a buffer holds afterwards is the stored value itself. Stated for any float semantics.
-/
import proofs.«111972_j19954418057631_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LowRank

open Cert.KernelIdeal Cert.KernelIdeal.Gen

variable {F : FTy → Type} [FloatOps F]

theorem hz : (![0, 0] : Fin 2 → Nat) = fun _ => 0 := funext fun a => by fin_cases a <;> rfl

/-- At a point with j = 0 the scratch is left holding the projection of the point's x block onto v. -/
theorem scratch_A (c : Dev nD) (i : grid0.Coords) (a2 : Memref sig .tc .vmem S512x4096 .f32) (h2 : a2.IsWhole)
    (a3 : Memref sig .tc .vmem S4096x256 .bf16) (h3 : a3.IsWhole) (a4 : Memref sig .tc .vmem S1024x256 .bf16) (h4 : a4.IsWhole)
    (a5 : Memref sig .tc .vmem S512x1024 .f32) (h5 : a5.IsWhole) (a6 : Memref sig .tc .vmem S512x256 .f32) (h6 : a6.IsWhole)
    (hc : cond0_0 i) (x0 : Vec F S512x4096 .f32) (x1 : Vec F S4096x256 .bf16) (x2 : Vec F S1024x256 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S512x4096) hz,
    View.ld_unit_zero (S := S4096x256) hz]

/-- At a point with j = 0 the output block is the expansion of the projection just stored (the scratch is read back
    after the store) against the point's block of the scaled u. -/
theorem out_A (c : Dev nD) (i : grid0.Coords) (a2 : Memref sig .tc .vmem S512x4096 .f32) (h2 : a2.IsWhole)
    (a3 : Memref sig .tc .vmem S4096x256 .bf16) (h3 : a3.IsWhole) (a4 : Memref sig .tc .vmem S1024x256 .bf16) (h4 : a4.IsWhole)
    (a5 : Memref sig .tc .vmem S512x1024 .f32) (h5 : a5.IsWhole) (a6 : Memref sig .tc .vmem S512x256 .f32) (h6 : a6.IsWhole)
    (hc : cond0_0 i) (x0 : Vec F S512x4096 .f32) (x1 : Vec F S4096x256 .bf16) (x2 : Vec F S1024x256 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S512x1024) hz, View.readCov_unit_zero (S := S512x256) _ hz]
  simp only [View.readAt_eq_ld, h2.read_unread, h3.read_unread, h4.read_unread, View.ld_unit_zero (S := S512x4096) hz,
    View.ld_unit_zero (S := S4096x256) hz, View.ld_unit_zero (S := S1024x256) hz]

/-- At a point with j > 0 the output block is the expansion of what the scratch held on entry against the point's
    block of the scaled u; the scratch is not written. -/
theorem out_B (c : Dev nD) (i : grid0.Coords) (a2 : Memref sig .tc .vmem S512x4096 .f32) (h2 : a2.IsWhole)
    (a3 : Memref sig .tc .vmem S4096x256 .bf16) (h3 : a3.IsWhole) (a4 : Memref sig .tc .vmem S1024x256 .bf16) (h4 : a4.IsWhole)
    (a5 : Memref sig .tc .vmem S512x1024 .f32) (h5 : a5.IsWhole) (a6 : Memref sig .tc .vmem S512x256 .f32) (h6 : a6.IsWhole)
    (hc : ¬cond0_0 i) (x0 : Vec F S512x4096 .f32) (x1 : Vec F S4096x256 .bf16) (x2 : Vec F S1024x256 .bf16) (xs : Vec F S512x256 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S512x1024) hz]
  simp only [View.readAt_eq_ld, h4.read_unread, h6.read_unread, View.ld_unit_zero (S := S512x256) hz,
    View.ld_unit_zero (S := S1024x256) hz]

end Cert.KernelIdeal.LowRank

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.LibMatmulRows.lean ====
/-
  A matrix product with the right operand given by rows, read at an entry. For dimension numbers that contract the
  left operand's axis 1 with the right operand's axis 1 and have no batch axis, the product of an [A, K] and a [B, K]
  array accumulated into the zero splat has, at `(p, q)`, the value `∑ k, lhs (p, k) * rhs (q, k)` on the extended
  reals; for any sizes A, K, B and any two float formats of the operands (a change of format is the identity on the
  extended reals).
-/
import Idealize.ShloMosaic.PureOps.Ideal.Laws
import Idealize.ShloMosaic.Lib.ValueIdx

noncomputable section

open scoped BigOperators
open Idealize.ShloMosaic Idealize.ShloMosaic.ValueIdx

namespace MatmulRows

/-- The matrix product `lhs · rhsᵀ` into a zero accumulator at entry `(p, q)`. -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have r1 : (D.rhsIdx (ix2 p q) ((contrEquiv1 D K rfl rfl).symm k) (1 : Fin 2)).val = k.val :=
    (D.rhsIdx_val_of_single rfl (ix2 p q) _).trans hk
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulRows

end
-- ==== Proof.Payloads.lean ====
/-
  The two matrix products of the kernel body, read at an entry.

  At a grid point the body holds a block of 512 rows of x (512 by 4096), all of v (4096 by 256) and a block of 1024
  rows of the scaled u (1024 by 256). Its first product, stored into the carried scratch, is the projection
  t (p, r) = ∑ k, x (p, k) * v (k, r); its second, stored into the output block, is t times the transposed u block,
  out (p, q) = ∑ r, t (p, r) * u (q, r). On the extended reals a change of float format is the identity and a product
  accumulated into the zero block is the plain sum.
-/
import proofs.«111972_j19954418057631_2_alg».proof.Proof.Gen.KernelIdeal.Skeleton
import proofs.«111972_j19954418057631_2_alg».proof.Proof.LibMatmulPlain
import proofs.«111972_j19954418057631_2_alg».proof.Proof.LibMatmulRows
import Idealize.ShloMosaic.Lib.Pipeline.Value

noncomputable section

open scoped BigOperators
open Idealize.ShloMosaic Idealize.ShloMosaic.ValueIdx

namespace Cert.KernelIdeal.LowRank

open Cert.KernelIdeal Cert.KernelIdeal.Gen

/-- The projection of a block of rows of x onto the columns of v, at entry (p, r). -/
theorem projection_apply (x : Vec Ideal S512x4096 .f32) (v : Vec Ideal S4096x256 .bf16) (p : Fin 512) (r : Fin 256) :
    k0_pay1 (F := Ideal) x v (ix2 p r) = ∑ k : Fin 4096, x (ix2 p k) * v (ix2 k r) := by
  unfold k0_pay1
  simp only [shapeCast_self]
  exact MatmulPlain.matmul_zero_apply (A := 512) (K := 4096) (B := 256)
    dot_S512x4096_S4096x256_S512x256_1_0_0_1_n_n rfl rfl rfl rfl rfl rfl none _ _ p r

/-- The expansion of a block of projections against a block of rows of the scaled u, at entry (p, q). -/
theorem expansion_apply (t : Vec Ideal S512x256 .f32) (u : Vec Ideal S1024x256 .bf16) (p : Fin 512) (q : Fin 1024) :
    k0_pay2 (F := Ideal) t u (ix2 p q) = ∑ r : Fin 256, t (ix2 p r) * u (ix2 q r) := by
  unfold k0_pay2
  simp only [shapeCast_self]
  exact MatmulRows.matmul_zero_apply (A := 512) (K := 256) (B := 1024)
    dot_S512x256_S1024x256_S512x1024_1_1_0_0_n_n rfl rfl rfl rfl rfl rfl none _ _ p q

end Cert.KernelIdeal.LowRank

end
-- ==== Proof.Inputs.lean ====
/-
  What the kernel's region is given, entry by entry.

  Three host stages run before the region. They hand it x with its two leading axes merged into 16384 rows (row
  2048 b + q of the merged array is row (b, q) of x), v unchanged (narrowing the float format is the identity on the
  extended reals), and u with column r scaled by s r. At grid point t = 4 i + j, i < 32, j < 4, the region's windows
  then show the body rows 512 i … 512 i + 511 of the merged x, all of v, and rows 1024 j … 1024 j + 1023 of the scaled u.
-/
import proofs.«111972_j19954418057631_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.LowRank

open Cert.KernelIdeal Cert.KernelIdeal.Gen

variable (m : (ℓ : Loc nD τ sig) → Buf (Elt Ideal) ℓ)

/-- The four argument arrays of core c, as arrays of extended reals. -/
abbrev argX (c : Dev nD) : S8x2048x4096.Idx → EReal := m ((c : Thread nD τ).loc main_arg0)
abbrev argU (c : Dev nD) : S4096x256.Idx → EReal := m ((c : Thread nD τ).loc main_arg1)
abbrev argS (c : Dev nD) : S256.Idx → EReal := m ((c : Thread nD τ).loc main_arg2)
abbrev argV (c : Dev nD) : S4096x256.Idx → EReal := m ((c : Thread nD τ).loc main_arg3)

/-! ## The arrays the region finds: three host stages before it -/

/-- The region's first operand is x with its two leading axes merged. -/
theorem V_x (c : Dev nD) : (V m c main_v5 : S16384x4096.Idx → EReal)
    = shapeCast S16384x4096 (m ((c : Thread nD τ).loc main_arg0)) shapeCasts_S8x2048x4096_S16384x4096 := by
  show StableHlo.after hostOps0 (fun b => m (c, b)) (Proc.devRef .tc main_v5) = _
  after_results
  rfl

/-- Row R of the merged x is row (R / 2048, R % 2048) of x. -/
theorem V_x_apply (c : Dev nD) (R : Fin 16384) (k : Fin 4096) (b : Fin 8) (q : Fin 2048) (hR : R.val = b.val * 2048 + q.val) :
    (V m c main_v5 : S16384x4096.Idx → EReal) (ix2 R k) = argX m c (ix3 b q k) := by
  rw [V_x]
  refine shapeCast_apply _ _ _ _ ?_
  show ((⟨3, ![8, 2048, 4096]⟩ : Shape).rowMajor (ix3 b q k)).val = ((⟨2, ![16384, 4096]⟩ : Shape).rowMajor (ix2 R k)).val
  rw [Shape.rowMajor_val_two, Shape.rowMajor_val_three]
  show (b.val * 2048 + q.val) * 4096 + k.val = R.val * 4096 + k.val
  rw [hR]

/-- The region's second operand is v (the change of float format is the identity on the extended reals). -/
theorem V_v (c : Dev nD) : (V m c main_v4 : S4096x256.Idx → EReal) = argV m c := by
  show StableHlo.after hostOps0 (fun b => m (c, b)) (Proc.devRef .tc main_v4) = _
  after_results
  rfl

/-- The region's third operand is u with column r scaled by s r. -/
theorem V_us (c : Dev nD) : (V m c main_v3 : S4096x256.Idx → EReal)
    = mulf (F := Ideal) (φ := .f32) (argU m c)
        (broadcastInDim S4096x256 ![0, 1] bcast_S1x256_S4096x256_0_1
          (broadcastInDim S1x256 ![1] bcast_S256_S1x256_1 (argS m c))) := by
  show StableHlo.after hostOps0 (fun b => m (c, b)) (Proc.devRef .tc main_v3) = _
  after_results
  rfl

theorem V_us_apply (c : Dev nD) (o : Fin 4096) (r : Fin 256) :
    (V m c main_v3 : S4096x256.Idx → EReal) (ix2 o r)
      = argU m c (ix2 o r) * argS m c (ix1 r) := by
  rw [V_us, mulf_apply]
  congr 1
  rw [broadcastInDim_apply _ bcast_S1x256_S4096x256_0_1 _ (ix2 o r) (ix2 (0 : Fin 1) r) (fun a => by
      match a with
      | ⟨0, _⟩ => show 0 = if (1 : Nat) = 1 then 0 else o.val; rw [if_pos rfl]
      | ⟨1, _⟩ => show r.val = if (256 : Nat) = 1 then 0 else r.val; rw [if_neg (by decide)]),
    broadcastInDim_apply _ bcast_S256_S1x256_1 _ (ix2 (0 : Fin 1) r) (ix1 r) (fun a => by
      match a with
      | ⟨0, _⟩ => show r.val = if (256 : Nat) = 1 then 0 else r.val; rw [if_neg (by decide)])]

/-! ## The windows' blocks at a grid point -/

/-- Which block of each array a grid point uses: point t = 4 i + j has row block i of x, all of v, row block j of the
    scaled u, and writes block (i, j) of the output. Decided over the 128 points. -/
theorem index_x : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem index_v : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_us : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
theorem index_out : ∀ t : Fin cfg0.N, win0_3.index t (0 : Fin 2) = t.val / 4 ∧ win0_3.index t (1 : Fin 2) = t.val % 4 :=
  (by decide +kernel : ∀ t : Fin grid0.N, win0_3.index t (0 : Fin 2) = t.val / 4 ∧ win0_3.index t (1 : Fin 2) = t.val % 4)

/-- The x block at point t is rows 512 (t / 4) … of the merged x. -/
theorem block_x_apply (c : Dev nD) (t : Fin cfg0.N) (p : Fin 512) (k : Fin 4096) (R : Fin 16384)
    (hR : R.val = 512 * (t.val / 4) + p.val) :
    (iblk m c 0 t : Vec Ideal S512x4096 .f32) (ix2 p k) = (V m c main_v5 : S16384x4096.Idx → EReal) (ix2 R k) := by
  unfold iblk
  rw [View.read_apply]
  show V m c main_v5 _ = V m c main_v5 _
  congr 1
  funext a
  apply Fin.ext
  match a with
  | ⟨0, _⟩ => show win0_0.index t 0 * 512 + 1 * p.val = R.val; rw [(index_x t).1, hR]; omega
  | ⟨1, _⟩ => show win0_0.index t 1 * 4096 + 1 * k.val = k.val; rw [(index_x t).2]; omega

/-- The v block at every point is all of v. -/
theorem block_v_apply (c : Dev nD) (t : Fin cfg0.N) (k : Fin 4096) (r : Fin 256) :
    (iblk m c 1 t : Vec Ideal S4096x256 .bf16) (ix2 k r) = (V m c main_v4 : S4096x256.Idx → EReal) (ix2 k r) := by
  unfold iblk
  rw [View.read_apply]
  show V m c main_v4 _ = V m c main_v4 _
  congr 1
  funext a
  apply Fin.ext
  match a with
  | ⟨0, _⟩ => show win0_1.index t 0 * 4096 + 1 * k.val = k.val; rw [(index_v t).1]; omega
  | ⟨1, _⟩ => show win0_1.index t 1 * 256 + 1 * r.val = r.val; rw [(index_v t).2]; omega

/-- The scaled-u block at point t is rows 1024 (t % 4) … . -/
theorem block_us_apply (c : Dev nD) (t : Fin cfg0.N) (q : Fin 1024) (r : Fin 256) (o : Fin 4096)
    (ho : o.val = 1024 * (t.val % 4) + q.val) :
    (iblk m c 2 t : Vec Ideal S1024x256 .bf16) (ix2 q r) = (V m c main_v3 : S4096x256.Idx → EReal) (ix2 o r) := by
  unfold iblk
  rw [View.read_apply]
  show V m c main_v3 _ = V m c main_v3 _
  congr 1
  funext a
  apply Fin.ext
  match a with
  | ⟨0, _⟩ => show win0_2.index t 0 * 1024 + 1 * q.val = o.val; rw [(index_us t).1, ho]; omega
  | ⟨1, _⟩ => show win0_2.index t 1 * 256 + 1 * r.val = r.val; rw [(index_us t).2]; omega

end Cert.KernelIdeal.LowRank

end
-- ==== Proof.Points.lean ====
/-
  What the scratch and the output block hold after every grid point.

  The points are visited in the order t = 0, 1, …, 127, and t = 4 i + j. At j = 0 the scratch receives the projection of
  row block i of x onto v; at j = 1, 2, 3 it is left alone. So after EVERY point t the scratch holds the projection of
  row block t / 4 (induction on t: within a row block the quotient t / 4 does not change), and the output block
  written at t is that projection times the transposed block t % 4 of the scaled u.
-/
import proofs.«111972_j19954418057631_2_alg».proof.Proof.Pieces
import proofs.«111972_j19954418057631_2_alg».proof.Proof.Payloads
import proofs.«111972_j19954418057631_2_alg».proof.Proof.Inputs

noncomputable section

open scoped BigOperators
open Idealize.ShloMosaic Idealize.ShloMosaic.TcCoe Idealize.SL.Sem Idealize.ShloMosaic.ValueIdx
open Idealize.ShloMosaic.Pipeline (Dat)

namespace Cert.KernelIdeal.LowRank

open Cert.KernelIdeal Cert.KernelIdeal.Gen

section anyFloats

variable {F : FTy → Type} [FloatOps F] (m : (ℓ : Loc nD τ sig) → Buf (Elt F) ℓ)

/-- After a point with j = 0 the scratch holds the projection of the point's x block. -/
theorem scratch_first (c : Dev nD) (t : Fin cfg0.N) (h0 : t.val % 4 = 0) :
    (outsAt0 m c t.val t.isLt).2 = k0_pay1 (iblk m c 0 t) (iblk m c 1 t) := by
  rw [outsAt0_A m c t h0]
  dsimp only
  exact scratch_A (F := F) c (grid0.coords t) (ms0_0 t) (hs0_0 t) (ms0_1 t) (hs0_1 t) (ms0_2 t) (hs0_2 t) (ms0_3 t) (hs0_3 t) scM0_0
    (Memref.isWhole_whole _) ((hcond0_0 t).mpr h0) (iblk m c 0 t) (iblk m c 1 t) (iblk m c 2 t)

/-- After a point with j = 0 the output block is that projection expanded against the point's scaled-u block. -/
theorem out_first (c : Dev nD) (t : Fin cfg0.N) (h0 : t.val % 4 = 0) :
    (outsAt0 m c t.val t.isLt).1 = k0_pay2 (k0_pay1 (iblk m c 0 t) (iblk m c 1 t)) (iblk m c 2 t) := by
  rw [outsAt0_A m c t h0]
  dsimp only
  exact out_A (F := F) c (grid0.coords t) (ms0_0 t) (hs0_0 t) (ms0_1 t) (hs0_1 t) (ms0_2 t) (hs0_2 t) (ms0_3 t) (hs0_3 t) scM0_0
    (Memref.isWhole_whole _) ((hcond0_0 t).mpr h0) (iblk m c 0 t) (iblk m c 1 t) (iblk m c 2 t)

/-- After a point with j > 0 the scratch is what the point before left. -/
theorem scratch_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  rfl

/-- After a point with j > 0 the output block is the carried scratch expanded against the point's scaled-u block. -/
theorem out_later (c : Dev nD) (t : Fin cfg0.N) (h0 : ¬t.val % 4 = 0) :
    (outsAt0 m c t.val t.isLt).1
      = k0_pay2 (outsAt0 m c (t.val - 1) (Nat.lt_of_le_of_lt (Nat.sub_le _ _) t.isLt)).2 (iblk m c 2 t) := by
  rw [outsAt0_B m c t h0]
  dsimp only
  exact out_B (F := F) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

end anyFloats

variable (m : (ℓ : Loc nD τ sig) → Buf (Elt Ideal) ℓ)

/-- Row R of the merged x projected onto column r of v. -/
def proj (X : S16384x4096.Idx → EReal) (W : S4096x256.Idx → EReal) (R : Fin 16384) (r : Fin 256) : EReal :=
  ∑ k : Fin 4096, X (ix2 R k) * W (ix2 k r)

/-- The projection computed from a point's blocks is the projection of the rows the x block shows. -/
theorem proj_blocks (c : Dev nD) (t : Fin cfg0.N) (p : Fin 512) (r : Fin 256) (R : Fin 16384)
    (hR : R.val = 512 * (t.val / 4) + p.val) :
    k0_pay1 (F := Ideal) (iblk m c 0 t) (iblk m c 1 t) (ix2 p r) = proj (V m c main_v5) (V m c main_v4) R r :=
  (projection_apply (iblk m c 0 t) (iblk m c 1 t) p r).trans
    (Finset.sum_congr rfl fun k _ => congrArg₂ (· * ·) (block_x_apply m c t p k R hR) (block_v_apply m c t k r))

/-- After every point n the scratch holds the projection of row block n / 4. -/
theorem scratch_eq (c : Dev nD) : ∀ (n : ℕ) (h : n < cfg0.N) (p : Fin 512) (r : Fin 256) (R : Fin 16384),
    R.val = 512 * (n / 4) + p.val →
    ((outsAt0 m c n h).2 : Vec Ideal S512x256 .f32) (ix2 p r) = proj (V m c main_v5) (V m c main_v4) R r
  | 0, h, p, r, R, hR => by
    rw [scratch_first m c ⟨0, h⟩ rfl]
    exact proj_blocks m c ⟨0, h⟩ p r R hR
  | n + 1, h, p, r, R, hR => by
    by_cases h0 : (n + 1) % 4 = 0
    · rw [scratch_first m c ⟨n + 1, h⟩ h0]
      exact proj_blocks m c ⟨n + 1, h⟩ p r R hR
    · rw [scratch_later m c ⟨n + 1, h⟩ h0]
      exact scratch_eq c n _ p r R (by omega)

/-- The output block written at point t: for the rows R the x block shows and the rows o the scaled-u block shows,
    entry (R, o) of x_merged · v · (scaled u)ᵀ. -/
theorem out_eq (c : Dev nD) (t : Fin cfg0.N) (p : Fin 512) (q : Fin 1024) (R : Fin 16384) (o : Fin 4096)
    (hR : R.val = 512 * (t.val / 4) + p.val) (ho : o.val = 1024 * (t.val % 4) + q.val) :
    ((outsAt0 m c t.val t.isLt).1 : Vec Ideal S512x1024 .f32) (ix2 p q)
      = ∑ r : Fin 256, proj (V m c main_v5) (V m c main_v4) R r * (V m c main_v3 : S4096x256.Idx → EReal) (ix2 o r) := by
  by_cases h0 : t.val % 4 = 0
  · rw [out_first m c t h0]
    refine (expansion_apply _ (iblk m c 2 t) p q).trans ?_
    exact Finset.sum_congr rfl fun r _ => congrArg₂ (· * ·) (proj_blocks m c t p r R hR) (block_us_apply m c t q r o ho)
  · rw [out_later m c t h0]
    refine (expansion_apply _ (iblk m c 2 t) p q).trans ?_
    exact Finset.sum_congr rfl fun r _ => congrArg₂ (· * ·)
      (scratch_eq m c (t.val - 1) _ p r R (by have := t.isLt; omega)) (block_us_apply m c t q r o ho)

end Cert.KernelIdeal.LowRank

end
-- ==== Proof.Blocks.lean ====
/-
  From the blocks written back to the region's whole output array.

  Every grid point t = 4 i + j writes its output block back to rows 512 i … and columns 1024 j … of the 16384-by-4096
  output. The 32 × 4 blocks tile the array, and each is the restriction of ONE function of the arrays the region finds:
  entry (R, o) is ∑ r, (∑ k, x_merged (R, k) * v (k, r)) * scaled_u (o, r). So after the last point the array holds that
  function.
-/
import proofs.«111972_j19954418057631_2_alg».proof.Proof.Points

noncomputable section

open scoped BigOperators
open Idealize.ShloMosaic Idealize.ShloMosaic.TcCoe Idealize.SL.Sem Idealize.ShloMosaic.ValueIdx
open Idealize.ShloMosaic.Pipeline (Dat)

namespace Cert.KernelIdeal.LowRank

open Cert.KernelIdeal Cert.KernelIdeal.Gen

variable (m : (ℓ : Loc nD τ sig) → Buf (Elt Ideal) ℓ) (ρ : Dev nD → PrngReg)

/-- The region's whole result: entry (R, o) of x_merged · v · (scaled u)ᵀ, as one function of the arrays the region finds. -/
def regionOut (X : S16384x4096.Idx → EReal) (W : S4096x256.Idx → EReal) (Us : S4096x256.Idx → EReal) :
    S16384x4096.Idx → EReal :=
  fun j => ∑ r : Fin 256, proj X W ⟨(j 0).val, (j 0).isLt⟩ r * Us (ix2 ⟨(j 1).val, (j 1).isLt⟩ r)

/-- What point t writes back, at an index of the block: the entry of the whole result at the block's position. -/
theorem written_apply (c : Dev nD) (t : Fin cfg0.N) (y : S512x1024.Idx) :
    ((outsAt0 m c t.val t.isLt).1 : Vec Ideal S512x1024 .f32) y
      = regionOut (V m c main_v5) (V m c main_v4) (V m c main_v3) (((cfg0.win 3).blk t).view.emb y) := by
  obtain ⟨p, q, rfl⟩ : ∃ (p : Fin 512) (q : Fin 1024), y = ix2 p q := ⟨y 0, y 1, eq_ix2 y⟩
  have e0 : ((((cfg0.win 3).blk t).view.emb (ix2 p q)) 0).val = 512 * (t.val / 4) + p.val := by
    show win0_3.index t 0 * 512 + 1 * p.val = _
    rw [(index_out t).1]; omega
  have e1 : ((((cfg0.win 3).blk t).view.emb (ix2 p q)) 1).val = 1024 * (t.val % 4) + q.val := by
    show win0_3.index t 1 * 1024 + 1 * q.val = _
    rw [(index_out t).2]; omega
  exact out_eq m c t p q ⟨_, ((((cfg0.win 3).blk t).view.emb (ix2 p q)) 0).isLt⟩
    ⟨_, ((((cfg0.win 3).blk t).view.emb (ix2 p q)) 1).isLt⟩ e0 e1

/-- What point t writes back is block t of the whole result. -/
theorem flushed_eq (c : Dev nD) (t : Fin cfg0.N) :
    (dats m 0 c).flushed 3 t
      = ((cfg0.win 3).blk t).view.read (Elt Ideal) (regionOut (V m c main_v5) (V m c main_v4) (V m c main_v3)) := by
  show (cfg0.win 3).cut (grid0.coords t) ((dats m 0 c).after 3 t) = _
  rw [after0_3]
  exact funext fun y => written_apply m c t y

/-- An index of the output array is in point t's block iff each coordinate is in the block's range. -/
theorem mem_block (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6).slice (win0_3.rect t)).set ↔ _
  rw [View.set_slice_whole, Rect.mem_set_unit]
  exact Iff.rfl

/-- The 32 × 4 blocks tile the output: entry (R, o) is in the block of point 4 (R / 512) + o / 1024. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 128 := N_0
  refine ⟨⟨4 * ((i 0).val / 512) + (i 1).val / 1024, by omega⟩, flush0_3 _, ?_⟩
  rw [mem_block]
  intro a
  match a with
  | ⟨0, _⟩ =>
    show win0_3.index _ (0 : Fin 2) * 512 ≤ (i 0).val ∧ (i 0).val < win0_3.index _ (0 : Fin 2) * 512 + 512
    rw [(index_out _).1]
    show (4 * ((i 0).val / 512) + (i 1).val / 1024) / 4 * 512 ≤ (i 0).val ∧ (i 0).val < (4 * ((i 0).val / 512) + (i 1).val / 1024) / 4 * 512 + 512
    omega
  | ⟨1, _⟩ =>
    show win0_3.index _ (1 : Fin 2) * 1024 ≤ (i 1).val ∧ (i 1).val < win0_3.index _ (1 : Fin 2) * 1024 + 1024
    rw [(index_out _).2]
    show (4 * ((i 0).val / 512) + (i 1).val / 1024) % 4 * 1024 ≤ (i 1).val ∧ (i 1).val < (4 * ((i 0).val / 512) + (i 1).val / 1024) % 4 * 1024 + 1024
    omega

/-- After the last point the output array of the region holds the whole result. -/
theorem region_final (c : Dev nD) :
    (dats m 0 c).arrAt 3 cfg0.N = regionOut (V m c main_v5) (V m c main_v4) (V m c main_v3) :=
  (dats m 0 c).arrAt_eq_of_cover 3 (regionOut (V m c main_v5) (V m c main_v4) (V m c main_v3))
    (fun t _ => flushed_eq m c t) covered

end Cert.KernelIdeal.LowRank

end
-- ==== Proof.KernelValue.lean ====
/-
  The kernel program's result as one function of its four arguments.

  The region's output array holds, at (R, o), ∑ r, (∑ k, x_merged (R, k) * v (k, r)) * scaled_u (o, r). The host stage
  after the region splits the row index R = 2048 b + q back into (b, q); the host stages before it made
  x_merged (2048 b + q, k) = x (b, q, k) and scaled_u (o, r) = u (o, r) * s r. Together: entry (b, q, o) of the kernel's
  result is the bottleneck arrangement of the layer, `Cert.LowRank.factored`, on the argument arrays.
-/
import proofs.«111972_j19954418057631_2_alg».proof.Proof.Blocks
import proofs.«111972_j19954418057631_2_alg».proof.Proof.Spec
import Idealize.ShloMosaic.Lib.Pipeline.FrameSuffix

noncomputable section

open scoped BigOperators
open Idealize.ShloMosaic Idealize.ShloMosaic.TcCoe Idealize.SL.Sem Idealize.ShloMosaic.ValueIdx
open Idealize.ShloMosaic.Pipeline (Dat)

namespace Cert.KernelIdeal.LowRank

open Cert.KernelIdeal Cert.KernelIdeal.Gen

variable (m : (ℓ : Loc nD τ sig) → Buf (Elt Ideal) ℓ) (ρ : Dev nD → PrngReg)

/-- The host stage after the region splits the 16384 rows of the region's output back into 8 × 2048. -/
theorem tail_eq (c : Dev nD) :
    (Pipeline.afterTail₀ cfgs (dats m) 0 (V0 m) [hostOps1] c main_v7 : S8x2048x4096.Idx → EReal)
      = shapeCast S8x2048x4096 (regionOut (V m c main_v5) (V m c main_v4) (V m c main_v3)) shapeCasts_S16384x4096_S8x2048x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = regionOut (V m c main_v5) (V m c main_v4) (V m c main_v3) :=
    (Pipeline.withArrays_arr spec0 launch0.win.arr_inj c _ _ 3).trans (region_final m c)
  rw [e]
  rfl

/-- The kernel program's result, entry by entry: the bottleneck arrangement of the layer on the four argument arrays. -/
theorem result_eq (c : Dev nD) :
    (Pipeline.afterTail₀ cfgs (dats m) 0 (V0 m) [hostOps1] c main_v7 : S8x2048x4096.Idx → EReal)
      = Cert.LowRank.factored (argX m c) (argU m c) (argS m c) (argV m c) := by
  rw [tail_eq]
  funext i
  obtain ⟨b, q, o, rfl⟩ : ∃ (b : Fin 8) (q : Fin 2048) (o : Fin 4096), i = ix3 b q o := ⟨i 0, i 1, i 2, eq_ix3 i⟩
  have hR : b.val * 2048 + q.val < 16384 := by have := b.isLt; have := q.isLt; omega
  rw [shapeCast_apply _ _ (ix3 b q o) (ix2 ⟨b.val * 2048 + q.val, hR⟩ o) (by
    show ((⟨2, ![16384, 4096]⟩ : Shape).rowMajor (ix2 (⟨b.val * 2048 + q.val, hR⟩ : Fin 16384) o)).val
      = ((⟨3, ![8, 2048, 4096]⟩ : Shape).rowMajor (ix3 b q o)).val
    rw [Shape.rowMajor_val_two, Shape.rowMajor_val_three]
    rfl)]
  show (∑ r : Fin 256, proj (V m c main_v5) (V m c main_v4) ⟨b.val * 2048 + q.val, hR⟩ r
      * (V m c main_v3 : S4096x256.Idx → EReal) (ix2 o r)) = Cert.LowRank.factoredAt (argX m c) (argU m c) (argS m c) (argV m c) b q o
  unfold Cert.LowRank.factoredAt proj
  refine Finset.sum_congr rfl fun r _ => ?_
  rw [V_us_apply m c o r]
  congr 1
  refine Finset.sum_congr rfl fun k _ => ?_
  rw [V_x_apply m c ⟨b.val * 2048 + q.val, hR⟩ k b q rfl, V_v m c]

/-- The kernel program's run, read: every weakly fair execution terminates with the result array at the bottleneck
    arrangement of the layer and the four argument arrays as they were. -/
theorem run : θ_run defs (onTc (τ := τ) (main (F := Ideal))) ⟨m, fun _ => 0, ρ⟩ fun r => ∀ c : Dev nD,
      r.2.mem ((c.tc : Thread nD τ).loc main_v7) = Cert.LowRank.factored (argX m c) (argU m c) (argS m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LowRank

end
-- ==== Proof.lean ====
/-
  A low-rank linear layer: out (b, q, o) = ∑ k, x (b, q, k) * W (o, k) with W = (u · diag s) · vᵀ of rank at most 256.

  The reference builds the 4096-by-4096 weight W (o, k) = ∑ r, (u (o, r) * s r) * v (k, r) and contracts x with it.
  The kernel never forms W: per block of 512 rows of x it computes the projection t = x · v once (kept in a scratch
  that is carried across the four column blocks of the output) and then t · (u · diag s)ᵀ block by block:
  out (b, q, o) = ∑ r, (∑ k, x (b, q, k) * v (k, r)) * (u (o, r) * s r).

  On the extended reals both are the double sum over (k, r) of x (b, q, k) * v (k, r) * (u (o, r) * s r), rearranged:
  a factor is moved across a sum and the two sums are exchanged. That is sound when every entry is a real number,
  which is what the precondition (all inputs finite) provides; with an infinite entry the two sides can differ.
  Changes of float format and the accumulation of a product into a zero block are the identity / the plain sum on the
  extended reals, so nothing else separates the two programs.

  The modules: Spec (the two arrangements and the law joining them), Finite (the precondition gives real entries),
  RefValue (the reference is the full-weight arrangement), Payloads (the body's two products at an entry), Pieces
  (what one run of the body leaves in the scratch and the output block), Inputs (what the region is given), Points
  (scratch and output block after every grid point, by induction on the point), Blocks (the blocks tile the region's
  output), KernelValue (the kernel program's result and its run). The three frame claims are the generated frames;
  the idealization rewrote nothing.
-/
import proofs.«111972_j19954418057631_2_alg».proof.Defs
import proofs.«111972_j19954418057631_2_alg».proof.Proof.Gen.Kernel
import proofs.«111972_j19954418057631_2_alg».proof.Proof.Gen.Kernel.Skeleton
import proofs.«111972_j19954418057631_2_alg».proof.Proof.Gen.Kernel.Launch
import proofs.«111972_j19954418057631_2_alg».proof.Proof.Gen.Kernel.Points
import proofs.«111972_j19954418057631_2_alg».proof.Proof.Gen.Kernel.Frame
import proofs.«111972_j19954418057631_2_alg».proof.Proof.Gen.KernelIdeal
import proofs.«111972_j19954418057631_2_alg».proof.Proof.Gen.KernelIdeal.Skeleton
import proofs.«111972_j19954418057631_2_alg».proof.Proof.Gen.KernelIdeal.Launch
import proofs.«111972_j19954418057631_2_alg».proof.Proof.Gen.KernelIdeal.Points
import proofs.«111972_j19954418057631_2_alg».proof.Proof.Gen.KernelIdeal.Frame
import proofs.«111972_j19954418057631_2_alg».proof.Proof.Gen.ReferenceIdeal
import proofs.«111972_j19954418057631_2_alg».proof.Proof.Gen.ReferenceIdeal.Run
import proofs.«111972_j19954418057631_2_alg».proof.Proof.Gen.ReferenceIdeal.Read
import proofs.«111972_j19954418057631_2_alg».proof.Proof.Gen.Pre_finite_inputs
import proofs.«111972_j19954418057631_2_alg».proof.Proof.Spec
import proofs.«111972_j19954418057631_2_alg».proof.Proof.Finite
import proofs.«111972_j19954418057631_2_alg».proof.Proof.RefValue
import proofs.«111972_j19954418057631_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on exact numbers. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on exact numbers rewrote no operation. -/
theorem preserves : Cert.preserves_Kernel_KernelIdeal := trivial

/-- On exact numbers the kernel ends at the bottleneck arrangement of the layer and the reference at the full-weight
    arrangement of the same arguments; the precondition makes every entry a real number, and for real entries the
    two arrangements agree. -/
theorem algebraic : Cert.algebraic_KernelIdeal_ReferenceIdeal := by
  intro m ρ m' ρ' hpre hagree
  refine ⟨_, Cert.KernelIdeal.LowRank.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨hx, hu, hs, hv⟩ := Cert.LowRank.reals_of_pre _ _ _ _ (hpre c)
  exact (Cert.ReferenceIdeal.LowRank.reference_eq_dense (Cert.KernelIdeal.LowRank.argX m c) (Cert.KernelIdeal.LowRank.argU m c)
      (Cert.KernelIdeal.LowRank.argS m c) (Cert.KernelIdeal.LowRank.argV m c)).trans
    (Cert.LowRank.factored_eq_dense _ _ _ _ hx hu hs hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
